-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x512 : Shape := ⟨3, ![8, 1024, 512]⟩
abbrev S512x32 : Shape := ⟨2, ![512, 32]⟩
abbrev S32 : Shape := ⟨1, ![32]⟩
abbrev S_ : Shape := ⟨0, ![]⟩

class Facts : Prop where
  bcast_S_S8x1024x512 : S_.BroadcastsInDim S8x1024x512 (![] : Fin 0 → Fin S8x1024x512.rank)
  reducesTo_S8x1024x512_S_d0_1_2 : S8x1024x512.ReducesTo [0, 1, 2] S_
  h_S_ : 0 < S_.numel
  bcast_S_S512x32 : S_.BroadcastsInDim S512x32 (![] : Fin 0 → Fin S512x32.rank)
  reducesTo_S512x32_S_d0_1 : S512x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S32 .f32) (main_v13 : IVec S_ 1) (main_v16 : IVec S512x32 1) : IVec S_ 1 :=
  let main_c_5 : IVec S_ 1 := constantI S_ 1 1#1
  let main_v17 : IVec S_ 1 := (fun x v => Host.reduce IntOp.andi x v reducesTo_S512x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S8x1024x512 .f32) (main_arg1 : FVec F S512x32 .f32) (main_arg2 : FVec F S512x32 .f32) (main_arg3 : FVec F S512x32 .f32) (main_arg4 : FVec F S32 .f32) : IVec S_ 1 :=
  let main_v0 : FVec F S8x1024x512 .f32 := Host.absf main_arg0
  let main_cst : FVec F S_ .f32 := constant S_ .f32 0x7F800000#32
  let main_v1 : FVec F S8x1024x512 .f32 := broadcastInDim S8x1024x512 ![] bcast_S_S8x1024x512 main_cst
  let main_v2 : IVec S8x1024x512 1 := cmpf .olt main_v0 main_v1
  let main_c : IVec S_ 1 := constantI S_ 1 1#1
  let main_v3 : IVec S_ 1 := (fun x v => Host.reduce IntOp.andi x v reducesTo_S8x1024x512_S_d0_1_2 h_S_) main_v2 main_c
  let main_v4 : FVec F S512x32 .f32 := Host.absf main_arg1
  let main_cst_0 : FVec F S_ .f32 := constant S_ .f32 0x7F800000#32
  let main_v5 : FVec F S512x32 .f32 := broadcastInDim S512x32 ![] bcast_S_S512x32 main_cst_0
  let main_v6 : IVec S512x32 1 := cmpf .olt main_v4 main_v5
  let main_c_1 : IVec S_ 1 := constantI S_ 1 1#1
  let main_v7 : IVec S_ 1 := (fun x v => Host.reduce IntOp.andi x v reducesTo_S512x32_S_d0_1 h_S_) main_v6 main_c_1
  let main_v8 : IVec S_ 1 := andi main_v3 main_v7
  let main_v9 : FVec F S512x32 .f32 := Host.absf main_arg2
  let main_cst_2 : FVec F S_ .f32 := constant S_ .f32 0x7F800000#32
  let main_v10 : FVec F S512x32 .f32 := broadcastInDim S512x32 ![] bcast_S_S512x32 main_cst_2
  let main_v11 : IVec S512x32 1 := cmpf .olt main_v9 main_v10
  let main_c_3 : IVec S_ 1 := constantI S_ 1 1#1
  let main_v12 : IVec S_ 1 := (fun x v => Host.reduce IntOp.andi x v reducesTo_S512x32_S_d0_1 h_S_) main_v11 main_c_3
  let main_v13 : IVec S_ 1 := andi main_v8 main_v12
  let main_v14 : FVec F S512x32 .f32 := Host.absf main_arg3
  let main_cst_4 : FVec F S_ .f32 := constant S_ .f32 0x7F800000#32
  let main_v15 : FVec F S512x32 .f32 := broadcastInDim S512x32 ![] bcast_S_S512x32 main_cst_4
  let main_v16 : IVec S512x32 1 := cmpf .olt main_v14 main_v15
  fn_part1 (F := F) main_arg4 main_v13 main_v16
-- ==== Kernel.lean ====
abbrev S8x1024x512 : Shape := ⟨3, ![8, 1024, 512]⟩
abbrev S512x32 : Shape := ⟨2, ![512, 32]⟩
abbrev S32 : Shape := ⟨1, ![32]⟩
abbrev S1x32 : Shape := ⟨2, ![1, 32]⟩
abbrev S8x1024x32 : Shape := ⟨3, ![8, 1024, 32]⟩
abbrev S1x1024x512 : Shape := ⟨3, ![1, 1024, 512]⟩
abbrev S1x1024x32 : Shape := ⟨3, ![1, 1024, 32]⟩
abbrev S1024x512 : Shape := ⟨2, ![1024, 512]⟩
abbrev S1024x32 : Shape := ⟨2, ![1024, 32]⟩

abbrev nBuf : Space → Nat
  | .hbm => 7
  | .vmem => 8
  | .smem => 0
  | _ => 0

abbrev bufTy : (tb : Table) → Fin (tcTables nBuf tb) → BufTy
  | .hbm, ⟨0, _⟩ => ⟨S8x1024x512, .f32⟩
  | .hbm, ⟨1, _⟩ => ⟨S512x32, .f32⟩
  | .hbm, ⟨2, _⟩ => ⟨S512x32, .f32⟩
  | .hbm, ⟨3, _⟩ => ⟨S512x32, .f32⟩
  | .hbm, ⟨4, _⟩ => ⟨S32, .f32⟩
  | .hbm, ⟨5, _⟩ => ⟨S1x32, .f32⟩
  | .hbm, ⟨6, _⟩ => ⟨S8x1024x32, .f32⟩
  | .local _ .vmem, ⟨0, _⟩ => ⟨S1x1024x512, .f32⟩
  | .local _ .vmem, ⟨1, _⟩ => ⟨S1x1024x512, .f32⟩
  | .local _ .vmem, ⟨2, _⟩ => ⟨S512x32, .f32⟩
  | .local _ .vmem, ⟨3, _⟩ => ⟨S512x32, .f32⟩
  | .local _ .vmem, ⟨4, _⟩ => ⟨S512x32, .f32⟩
  | .local _ .vmem, ⟨5, _⟩ => ⟨S1x32, .f32⟩
  | .local _ .vmem, ⟨6, _⟩ => ⟨S1x1024x32, .f32⟩
  | .local _ .vmem, ⟨7, _⟩ => ⟨S1x1024x32, .f32⟩
  | _, _ => ⟨S8x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1024x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32_S1x32 : S32.ShapeCasts S1x32
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S512x32_S512x32_0_0 : ∀ a, (![0, 0] : Fin 2 → Nat) a + S512x32.size a ≤ S512x32.size a
  h_S512x32 : 0 < S512x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S1024x32 : S1x32.Broadcasts S1024x32
  reduces_S1024x32_S32 : S1024x32.Reduces [0] S32
  inb_S1x1024x32_S1x1024x32_0_0_0 : ∀ a, (![0, 0, 0] : Fin 3 → Nat) a + S1x1024x32.size a ≤ S1x1024x32.size a
  h_S1x1024x32 : 0 < S1x1024x32.numel
  shapeCasts_S1x1024x32_S1024x32 : S1x1024x32.ShapeCasts S1024x32
  shapeCasts_S1024x32_S1x1024x32 : S1024x32.ShapeCasts S1x1024x32
  dot_S1024x512_S512x32_S1024x32_1_0_0_1_n_n_wf : DotDims.WF S1024x512 S512x32 S1024x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S8x1024x512.size a
  hwx0_0 : ∀ i : grid0.Coords, EltTy.bits .f32 = 32 ∨ (Rect.block (s := S8x1024x512) S1x1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S512x32.size a
  hwx0_1 : ∀ i : grid0.Coords, EltTy.bits .f32 = 32 ∨ (Rect.block (s := S512x32) S512x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x32.size a ≤ S512x32.size a
  hwx0_2 : ∀ i : grid0.Coords, EltTy.bits .f32 = 32 ∨ (Rect.block (s := S512x32) S512x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x32.size a ≤ S512x32.size a
  hwx0_3 : ∀ i : grid0.Coords, EltTy.bits .f32 = 32 ∨ (Rect.block (s := S512x32) S512x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x32.size a ≤ S8x1024x32.size a
  hwx0_5 : ∀ i : grid0.Coords, EltTy.bits .f32 = 32 ∨ (Rect.block (s := S8x1024x32) S1x1024x32.size (cc0_transform_5 i) (hinb0_5 i)).WholeWords (EltTy.packing .f32)

variable [Facts₀]

def dot_S1024x512_S512x32_S1024x32_1_0_0_1_n_n : DotDims S1024x512 S512x32 S1024x32 where
  lhsContracting := [1]
  rhsContracting := [0]
  lhsNonContracting := [0]
  rhsNonContracting := [1]
  lhsBatch := []
  rhsBatch := []
  wf := dot_S1024x512_S512x32_S1024x32_1_0_0_1_n_n_wf

abbrev win0_0 : Pipeline.Window sig grid0 :=
  Pipeline.Window.ofSpec (Memref.whole main_arg0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v0) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x1024x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x1024x512 : Shape := ⟨3, ![8, 1024, 512]⟩
abbrev S512x32 : Shape := ⟨2, ![512, 32]⟩
abbrev S32 : Shape := ⟨1, ![32]⟩
abbrev S8x1024x32 : Shape := ⟨3, ![8, 1024, 32]⟩
abbrev S1x1x32 : Shape := ⟨3, ![1, 1, 32]⟩
abbrev S_ : Shape := ⟨0, ![]⟩
abbrev S8x32 : Shape := ⟨2, ![8, 32]⟩
abbrev S8x1x32 : Shape := ⟨3, ![8, 1, 32]⟩

abbrev nBuf : Space → Nat
  | .hbm => 22
  | .vmem => 0
  | .smem => 0
  | _ => 0

abbrev bufTy : (tb : Table) → Fin (tcTables nBuf tb) → BufTy
  | .hbm, ⟨0, _⟩ => ⟨S8x1024x512, .f32⟩
  | .hbm, ⟨1, _⟩ => ⟨S512x32, .f32⟩
  | .hbm, ⟨2, _⟩ => ⟨S512x32, .f32⟩
  | .hbm, ⟨3, _⟩ => ⟨S512x32, .f32⟩
  | .hbm, ⟨4, _⟩ => ⟨S32, .f32⟩
  | .hbm, ⟨5, _⟩ => ⟨S8x1024x32, .f32⟩
  | .hbm, ⟨6, _⟩ => ⟨S1x1x32, .f32⟩
  | .hbm, ⟨7, _⟩ => ⟨S8x1024x32, .f32⟩
  | .hbm, ⟨8, _⟩ => ⟨S8x1024x32, .f32⟩
  | .hbm, ⟨9, _⟩ => ⟨S8x1024x32, .f32⟩
  | .hbm, ⟨10, _⟩ => ⟨S8x1024x32, .f32⟩
  | .hbm, ⟨11, _⟩ => ⟨S_, .f32⟩
  | .hbm, ⟨12, _⟩ => ⟨S8x32, .f32⟩
  | .hbm, ⟨13, _⟩ => ⟨S8x1x32, .f32⟩
  | .hbm, ⟨14, _⟩ => ⟨S8x1024x32, .f32⟩
  | .hbm, ⟨15, _⟩ => ⟨S_, .f32⟩
  | .hbm, ⟨16, _⟩ => ⟨S8x32, .f32⟩
  | .hbm, ⟨17, _⟩ => ⟨S8x1x32, .f32⟩
  | .hbm, ⟨18, _⟩ => ⟨S8x1024x32, .f32⟩
  | .hbm, ⟨19, _⟩ => ⟨S8x1024x32, .f32⟩
  | .hbm, ⟨20, _⟩ => ⟨S8x1024x32, .f32⟩
  | .hbm, ⟨21, _⟩ => ⟨S8x1024x32, .f32⟩
  | _, _ => ⟨S8x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S32_S1x1x32_2 : S32.BroadcastsInDim S1x1x32 (![2] : Fin 1 → Fin S1x1x32.rank)
  bcast_S1x1x32_S8x1024x32_0_1_2 : S1x1x32.BroadcastsInDim S8x1024x32 (![0, 1, 2] : Fin 3 → Fin S8x1024x32.rank)
  reducesTo_S8x1024x32_S8x32_d1 : S8x1024x32.ReducesTo [1] S8x32
  h_S_ : 0 < S_.numel
  bcast_S8x32_S8x1x32_0_2 : S8x32.BroadcastsInDim S8x1x32 (![0, 2] : Fin 2 → Fin S8x1x32.rank)
  bcast_S8x1x32_S8x1024x32_0_1_2 : S8x1x32.BroadcastsInDim S8x1024x32 (![0, 1, 2] : Fin 3 → Fin S8x1024x32.rank)
  dot_S8x1024x512_S512x32_S8x1024x32_2_0_01_1_n_n_wf : DotDims.WF S8x1024x512 S512x32 S8x1024x32 [2] [0] [0, 1] [1] [] []

variable [Facts₀]

def dot_S8x1024x512_S512x32_S8x1024x32_2_0_01_1_n_n : DotDims S8x1024x512 S512x32 S8x1024x32 where
  lhsContracting := [2]
  rhsContracting := [0]
  lhsNonContracting := [0, 1]
  rhsNonContracting := [1]
  lhsBatch := []
  rhsBatch := []
  wf := dot_S8x1024x512_S512x32_S8x1024x32_2_0_01_1_n_n_wf

class Facts : Prop extends Facts₀ where

variable [Facts]
-- ==== Proof.Spec.lean ====
/-
  The function both programs compute, on the extended reals.

  A graph of 1024 nodes with 512 features each, eight graphs in a batch. Every node's features are projected three ways
  by 512 × 32 matrices: `W1` (with a bias added) gives the node's own term, `W2` a message and `Wg` a gate. Channel `r` of
  node `n` ends at

      (x[n] · W1[:, r] + bias[r]) * (∑ j, x[j] · Wg[:, r]) + ∑ j, (x[j] · W2[:, r]) * (x[j] · Wg[:, r]),

  the sums over the 1024 nodes `j` of the same graph. Nothing here needs a finite input: both programs form exactly
  these sums and products in this arrangement, so no law of arithmetic is applied between them.

  `slab` states the formula for one graph given as rows of features; `msg` reads it off the batched arrays.
-/
import Idealize.ShloMosaic.PureOps.Ideal
import Idealize.ShloMosaic.Lib.ValueIdx

noncomputable section

namespace Cert.Gnn

open Idealize.ShloMosaic Idealize.ShloMosaic.ValueIdx
open scoped BigOperators

/-- Row `n` of one graph's features against column `r` of a weight matrix. -/
def proj (xs : Fin 1024 → Fin 512 → EReal) (W : FVec Ideal ⟨2, ![512, 32]⟩ .f32) (n : Fin 1024) (r : Fin 32) : EReal :=
  ∑ k : Fin 512, xs n k * W (ix2 k r)

/-- Channel `r` of node `n` of one graph: the node's own biased projection times the gate summed over the graph's
    nodes, plus the gated messages summed over the graph's nodes. -/
def slab (xs : Fin 1024 → Fin 512 → EReal) (W1 W2 Wg : FVec Ideal ⟨2, ![512, 32]⟩ .f32) (bias : Fin 32 → EReal)
    (n : Fin 1024) (r : Fin 32) : EReal :=
  (proj xs W1 n r + bias r) * (∑ j : Fin 1024, proj xs Wg j r) + ∑ j : Fin 1024, proj xs W2 j r * proj xs Wg j r

/-- The whole result: entry `(g, n, r)` is `slab` of graph `g`'s rows. -/
def msg (x : FVec Ideal ⟨3, ![8, 1024, 512]⟩ .f32) (W1 W2 Wg : FVec Ideal ⟨2, ![512, 32]⟩ .f32) (bias : FVec Ideal ⟨1, ![32]⟩ .f32) :
    FVec Ideal ⟨3, ![8, 1024, 32]⟩ .f32 :=
  fun i => slab (fun n k => x (ix3 (i 0) n k)) W1 W2 Wg (fun r => bias (ix1 r)) (i 1) (i 2)

theorem msg_ix3 (x : FVec Ideal ⟨3, ![8, 1024, 512]⟩ .f32) (W1 W2 Wg : FVec Ideal ⟨2, ![512, 32]⟩ .f32) (bias : FVec Ideal ⟨1, ![32]⟩ .f32)
    (g : Fin 8) (n : Fin 1024) (r : Fin 32) :
    msg x W1 W2 Wg bias (ix3 g n r) = slab (fun n k => x (ix3 g n k)) W1 W2 Wg (fun r => bias (ix1 r)) n r := rfl

end Cert.Gnn

end
-- ==== Proof.Reference.lean ====
/-
  The reference computes `msg`. Read one operation at a time (the generated read-at-an-index lemmas), entry `(g, n, r)` of
  its result is the biased `W1` product of row `(g, n)`, times the `Wg` products of graph `g` summed over its nodes
  from a zero initial value, plus the `W2` products times the `Wg` products summed over the graph's nodes from a zero
  initial value: `slab` of graph `g`'s rows, once the two zeros are dropped.
-/
import proofs.«143688_j44255343018632_1_alg».proof.Proof.Gen.ReferenceIdeal.Read
import proofs.«143688_j44255343018632_1_alg».proof.Proof.Spec

noncomputable section

namespace Cert.Gnn.Ref

open Cert.ReferenceIdeal Cert.ReferenceIdeal.Read Idealize.ShloMosaic Idealize.ShloMosaic.ValueIdx Cert.Gnn
open scoped BigOperators

/-- One of the reference's three products `x · W`, at `(g, n, r)`: row `(g, n)` of `x` against column `r` of `W`. -/
theorem dot_at (x : FVec Ideal S8x1024x512 .f32) (W : FVec Ideal S512x32 .f32) (g : Fin 8) (n : Fin 1024) (r : Fin 32) :
    val_main_v0 (F := Ideal) x W (ix3 g n r) = proj (fun n k => x (ix3 g n k)) W n r := by
  rw [val_main_v0_apply]
  refine Finset.sum_congr rfl fun k _ => ?_
  have el : lidx_main_v0 (ix3 g n r) k = ix3 g n k :=
    funext fun a => Fin.ext (by match a with | ⟨0, _⟩ => rfl | ⟨1, _⟩ => rfl | ⟨2, _⟩ => rfl)
  have er : ridx_main_v0 (ix3 g n r) k = ix2 k r :=
    funext fun a => Fin.ext (by match a with | ⟨0, _⟩ => rfl | ⟨1, _⟩ => rfl)
  rw [el, er]

/-- The gate products summed over a graph's nodes, at `(g, r)`. -/
theorem gate_sum_at (x : FVec Ideal S8x1024x512 .f32) (Wg : FVec Ideal S512x32 .f32) (g : Fin 8) (r : Fin 32) :
    val_main_v6 (F := Ideal) x Wg (ix2 g r) = ∑ j : Fin 1024, proj (fun n k => x (ix3 g n k)) Wg j r := by
  rw [val_main_v6_apply, val_main_cst_apply, Ideal.ofBits_def, Ideal.ofBits_zero_f32, zero_add]
  refine Finset.sum_congr rfl fun j _ => ?_
  have e : idx_main_v6 (ix2 g r) j = ix3 g j r :=
    funext fun a => Fin.ext (by match a with | ⟨0, _⟩ => rfl | ⟨1, _⟩ => rfl | ⟨2, _⟩ => rfl)
  rw [e]
  exact dot_at x Wg g j r

/-- The gated messages summed over a graph's nodes, at `(g, r)`. -/
theorem gated_sum_at (x : FVec Ideal S8x1024x512 .f32) (W2 Wg : FVec Ideal S512x32 .f32) (g : Fin 8) (r : Fin 32) :
    val_main_v9 (F := Ideal) x W2 Wg (ix2 g r)
      = ∑ j : Fin 1024, proj (fun n k => x (ix3 g n k)) W2 j r * proj (fun n k => x (ix3 g n k)) Wg j r := by
  rw [val_main_v9_apply, val_main_cst_0_apply, Ideal.ofBits_def, Ideal.ofBits_zero_f32, zero_add]
  refine Finset.sum_congr rfl fun j _ => ?_
  have e : idx_main_v9 (ix2 g r) j = ix3 g j r :=
    funext fun a => Fin.ext (by match a with | ⟨0, _⟩ => rfl | ⟨1, _⟩ => rfl | ⟨2, _⟩ => rfl)
  rw [e, val_main_v8_apply]
  exact congrArg₂ (· * ·) (dot_at x W2 g j r) (dot_at x Wg g j r)

/-- The reference's result is `msg` of its arguments. -/
theorem result_eq (x : FVec Ideal S8x1024x512 .f32) (W1 W2 Wg : FVec Ideal S512x32 .f32) (b : FVec Ideal S32 .f32) :
    val_main_v14 (F := Ideal) x W1 W2 Wg b = msg x W1 W2 Wg b := by
  funext i
  obtain ⟨g, n, r, rfl⟩ : ∃ (g : Fin 8) (n : Fin 1024) (r : Fin 32), i = ix3 g n r := ⟨i 0, i 1, i 2, eq_ix3 i⟩
  rw [val_main_v14_apply, val_main_v12_apply, val_main_v3_apply, val_main_v2_apply, val_main_v1_apply,
    val_main_v11_apply, val_main_v7_apply, val_main_v13_apply, val_main_v10_apply]
  have e1 : idx_main_v1 (idx_main_v2 (ix3 g n r)) = ix1 r :=
    funext fun a => Fin.ext (by match a with | ⟨0, _⟩ => rfl)
  have e2 : idx_main_v7 (idx_main_v11 (ix3 g n r)) = ix2 g r :=
    funext fun a => Fin.ext (by match a with | ⟨0, _⟩ => rfl | ⟨1, _⟩ => rfl)
  have e3 : idx_main_v10 (idx_main_v13 (ix3 g n r)) = ix2 g r :=
    funext fun a => Fin.ext (by match a with | ⟨0, _⟩ => rfl | ⟨1, _⟩ => rfl)
  rw [e1, e2, e3, dot_at, gate_sum_at, gated_sum_at]
  rfl

end Cert.Gnn.Ref

end
-- ==== Proof.LibMatmulAt.lean ====
/-
  A matrix product with one contracted axis, read at an entry, on the extended reals: whatever record of dimension
  numbers describes "rows of the left factor against columns of the right one", the product into a zero accumulator
  (the form a kernel body has) and the host's product (the form a reference has) are both the plain sum over the
  contracted coordinate. The record enters only through four facts about where it sends an output index and a
  contraction index, which are decided per record.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : Nat} (D : DotDims ⟨2, ![a, K]⟩ ⟨2, ![K, b]⟩ ⟨2, ![a, b]⟩)
  (hr : D.contr.rank = 1) (hs : D.contr.size ⟨0, by omega⟩ = K)
  (hl0 : ∀ i q, (D.lhsIdx i q 0).val = (i 0).val)
  (hl1 : ∀ i q, (D.lhsIdx i q 1).val = (q ⟨0, by omega⟩).val)
  (hr0 : ∀ i q, (D.rhsIdx i q 0).val = (q ⟨0, by omega⟩).val)
  (hr1 : ∀ i q, (D.rhsIdx i q 1).val = (i 1).val)
  {φ₁ φ₂ : FTy}

include hr hs hl0 hl1 hr0 hr1 in
/-- The contraction sum of a rows-by-columns product at `(p, q)` is the sum over `k` of `l (p, k) * r (k, q)`. -/
theorem contr_sum_apply (l : FVec Ideal ⟨2, ![a, K]⟩ φ₁) (r : FVec Ideal ⟨2, ![K, b]⟩ φ₂) (p : Fin a) (q : Fin b) :
    (∑ k : D.contr.Idx, l (D.lhsIdx (ix2 p q) k) * r (D.rhsIdx (ix2 p q) k)) = ∑ k : Fin K, l (ix2 p k) * r (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun x => Fin.ext (by
    match x with
    | ⟨0, _⟩ => exact hl0 _ _
    | ⟨1, _⟩ => exact (hl1 _ _).trans hk)
  have er : D.rhsIdx (ix2 p q) ((contrEquiv1 D K hr hs).symm k) = ix2 k q := funext fun x => Fin.ext (by
    match x with
    | ⟨0, _⟩ => exact (hr0 _ _).trans hk
    | ⟨1, _⟩ => exact hr1 _ _)
  rw [el, er]

include hr hs hl0 hl1 hr0 hr1 in
/-- A kernel body's product into the zero accumulator, at `(p, q)`. -/
theorem matmul_zero_apply (l : FVec Ideal ⟨2, ![a, K]⟩ φ₁) (r : FVec Ideal ⟨2, ![K, b]⟩ φ₂) (p : Fin a) (q : Fin b) :
    matmul D none l r (constant ⟨2, ![a, b]⟩ .f32 0x00000000#32) (ix2 p q) = ∑ k : Fin K, l (ix2 p k) * r (ix2 k q) := by
  refine (Ideal.matmul_constant_zero_apply D none l r (ix2 p q)).trans ?_
  exact contr_sum_apply D hr hs hl0 hl1 hr0 hr1 l r p q

include hr hs hl0 hl1 hr0 hr1 in
/-- The host's product, at `(p, q)`. -/
theorem dotGeneral_plain_apply (prec : Option ContractPrecision) (sched : HostSchedule)
    (l : FVec Ideal ⟨2, ![a, K]⟩ φ₁) (r : FVec Ideal ⟨2, ![K, b]⟩ φ₂) (p : Fin a) (q : Fin b) :
    FloatOps.dotGeneral D prec sched l r (ix2 p q) = ∑ k : Fin K, l (ix2 p k) * r (ix2 k q) := by
  refine (Ideal.dotGeneral_apply D prec sched l r (ix2 p q)).trans ?_
  exact contr_sum_apply D hr hs hl0 hl1 hr0 hr1 l r p q

end Cert.Lib

end
-- ==== Proof.Ops.lean ====
/-
  The pieces of one graph's computation read at an entry, on the extended reals, over the shapes of this kernel:
  a 1 × 1024 × 512 block of features with its unit axis dropped and multiplied into a 512 × 32 matrix (`proj_at`);
  a sum down the 1024 rows of a 1024 × 32 array (`colsum_at`); a 32-vector, or a 1 × 32 row, repeated down 1024 rows
  (`keep_at`, `row_at`); and the four pieces put together (`slab_intro`).
-/
import proofs.«143688_j44255343018632_1_alg».proof.Proof.Spec
import proofs.«143688_j44255343018632_1_alg».proof.Proof.LibMatmulAt
import Idealize.ShloMosaic.Lib.ValueLayout

noncomputable section

namespace Cert.Gnn

open Idealize.ShloMosaic Idealize.ShloMosaic.ValueIdx
open scoped BigOperators

/-- The block of one graph's features, its leading unit axis dropped, times a weight matrix into a zero accumulator:
    entry `(n, r)` is row `n` of the block against column `r`. The record of dimension numbers enters through its four
    index facts only. -/
theorem proj_at (D : DotDims ⟨2, ![1024, 512]⟩ ⟨2, ![512, 32]⟩ ⟨2, ![1024, 32]⟩)
    (hr : D.contr.rank = 1) (hs : D.contr.size ⟨0, by omega⟩ = 512)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (v : FVec Ideal ⟨3, ![1, 1024, 512]⟩ .f32) (hc : (⟨3, ![1, 1024, 512]⟩ : Shape).ShapeCasts ⟨2, ![1024, 512]⟩)
    (W : FVec Ideal ⟨2, ![512, 32]⟩ .f32) (n : Fin 1024) (r : Fin 32) :
    matmul D none (shapeCast ⟨2, ![1024, 512]⟩ v hc) W (constant ⟨2, ![1024, 32]⟩ .f32 0x00000000#32) (ix2 n r)
      = proj (fun n k => v (ix3 (0 : Fin 1) n k)) W n r := by
  refine (Cert.Lib.matmul_zero_apply D hr hs hl0 hl1 hr0 hr1 (shapeCast ⟨2, ![1024, 512]⟩ v hc) W n r).trans ?_
  exact Finset.sum_congr rfl fun k _ => congrArg (· * W (ix2 k r)) (shapeCast_1ab_ab_apply v hc n k)

/-- A sum down the rows of a 1024 × 32 array, at column `r`: the sum over the 1024 rows of the entries of that column. -/
theorem colsum_at (Y : FVec Ideal ⟨2, ![1024, 32]⟩ .f32) (h : Shape.Reduces ⟨2, ![1024, 32]⟩ [0] ⟨1, ![32]⟩)
    (hφ : FKind.Formats .f32) (hacc : (0x00000000#32 : BitVec 32) = 0x00000000#32) (r : Fin 32) :
    multiReduction .add [0] ⟨1, ![32]⟩ Y 0x00000000#32 h hφ hacc (ix1 r) = ∑ j : Fin 1024, Y (ix2 j r) := by
  refine (Ideal.multiReduction_add_single Y 0x00000000#32 h hφ hacc (ix1 r)).trans ?_
  refine Finset.sum_congr rfl fun j _ => congrArg Y ?_
  exact funext fun a => Fin.ext (by match a with | ⟨0, _⟩ => rfl | ⟨1, _⟩ => rfl)

/-- A 32-vector given a leading unit axis and repeated down 1024 rows: entry `(n, r)` is the vector's entry `r`. -/
theorem keep_at {α : Type} (Z : (⟨1, ![32]⟩ : Shape).Idx → α) (h1 : (⟨1, ![32]⟩ : Shape).ShapeCasts ⟨2, ![1, 32]⟩)
    (h2 : (⟨2, ![1, 32]⟩ : Shape).Broadcasts ⟨2, ![1024, 32]⟩) (n : Fin 1024) (r : Fin 32) :
    broadcastTo ⟨2, ![1024, 32]⟩ (shapeCast ⟨2, ![1, 32]⟩ Z h1) h2 (ix2 n r) = Z (ix1 r) :=
  (broadcastTo_1b_ab_apply _ h2 n r).trans (shapeCast_a_1a_apply Z h1 0 r)

/-- A 1 × 32 row (cast to its own shape) repeated down 1024 rows: entry `(n, r)` is the row's entry `r`. -/
theorem row_at {α : Type} (b : (⟨2, ![1, 32]⟩ : Shape).Idx → α) (h1 : (⟨2, ![1, 32]⟩ : Shape).ShapeCasts ⟨2, ![1, 32]⟩)
    (h2 : (⟨2, ![1, 32]⟩ : Shape).Broadcasts ⟨2, ![1024, 32]⟩) (n : Fin 1024) (r : Fin 32) :
    broadcastTo ⟨2, ![1024, 32]⟩ (shapeCast ⟨2, ![1, 32]⟩ b h1) h2 (ix2 n r) = b (ix2 (0 : Fin 1) r) :=
  (broadcastTo_1b_ab_apply _ h2 n r).trans (congrFun (shapeCast_self b h1) _)

/-- The four pieces of an entry are the four pieces of `slab`. -/
theorem slab_intro (xs : Fin 1024 → Fin 512 → EReal) (W1 W2 Wg : FVec Ideal ⟨2, ![512, 32]⟩ .f32) (bias : Fin 32 → EReal)
    (n : Fin 1024) (r : Fin 32) (A B C E : EReal) (hA : A = proj xs W1 n r) (hB : B = bias r)
    (hC : C = ∑ j : Fin 1024, proj xs Wg j r) (hE : E = ∑ j : Fin 1024, proj xs W2 j r * proj xs Wg j r) :
    (A + B) * C + E = slab xs W1 W2 Wg bias n r := by
  rw [hA, hB, hC, hE]; rfl

end Cert.Gnn

end
-- ==== Proof.Body.lean ====
/-
  What the kernel body stores, read at an entry. At one grid point the body has one graph's 1 × 1024 × 512 block of
  features, the three whole weight matrices and the bias as a 1 × 32 row; it stores a 1 × 1024 × 32 block whose entry
  `(·, n, r)` is `slab` of the block's rows: the three products into zero accumulators are the three projections, the two
  sums down the rows are the two sums over the graph's nodes, and the shape casts and the row broadcasts only move
  entries.
-/
import proofs.«143688_j44255343018632_1_alg».proof.Proof.Gen.KernelIdeal.Skeleton
import proofs.«143688_j44255343018632_1_alg».proof.Proof.Ops

noncomputable section

namespace Cert.Gnn.Body

open Cert.KernelIdeal Cert.KernelIdeal.Gen Idealize.ShloMosaic Idealize.ShloMosaic.ValueIdx Cert.Gnn
open scoped BigOperators

/-- The body's one record of dimension numbers: rows of a 1024 × 512 left factor against columns of a 512 × 32 right one. -/
abbrev D : DotDims S1024x512 S512x32 S1024x32 := dot_S1024x512_S512x32_S1024x32_1_0_0_1_n_n

/-- Where the record sends an output index and a contraction index: the left factor is read at (row, contraction) … -/
theorem D_l0 (i : S1024x32.Idx) (q : D.contr.Idx) : (D.lhsIdx i q 0).val = (i 0).val := by
  unfold DotDims.lhsIdx
  rw [dif_neg (show ¬(0 : Fin S1024x512.rank) ∈ D.lhsBatch by decide), dif_pos (show (0 : Fin S1024x512.rank) ∈ D.lhsNonContracting by decide)]
  rfl
theorem D_l1 (i : S1024x32.Idx) (q : D.contr.Idx) : (D.lhsIdx i q 1).val = (q ⟨0, by decide⟩).val :=
  D.lhsIdx_val_of_single rfl i q
/-- … and the right factor at (contraction, column). -/
theorem D_r0 (i : S1024x32.Idx) (q : D.contr.Idx) : (D.rhsIdx i q 0).val = (q ⟨0, by decide⟩).val :=
  D.rhsIdx_val_of_single rfl i q
theorem D_r1 (i : S1024x32.Idx) (q : D.contr.Idx) : (D.rhsIdx i q 1).val = (i 1).val := by
  unfold DotDims.rhsIdx
  rw [dif_neg (show ¬(1 : Fin S512x32.rank) ∈ D.rhsBatch by decide), dif_pos (show (1 : Fin S512x32.rank) ∈ D.rhsNonContracting by decide)]
  rfl

/-- One projection inside the body, at `(n, r)`. -/
theorem body_proj_at (v0 : FVec Ideal S1x1024x512 .f32) (hc : S1x1024x512.ShapeCasts S1024x512) (W : FVec Ideal S512x32 .f32)
    (n : Fin 1024) (r : Fin 32) :
    matmul (F := Ideal) D none (shapeCast S1024x512 v0 hc) W (constant S1024x32 .f32 0x00000000#32) (ix2 n r)
      = proj (fun n k => v0 (ix3 (0 : Fin 1) n k)) W n r :=
  proj_at D rfl rfl D_l0 D_l1 D_r0 D_r1 v0 hc W n r

/-- The stored block at `(u, n, r)` is `slab` of the feature block's rows, the loaded matrices and the loaded bias row. -/
theorem pay_at (v0 : FVec Ideal S1x1024x512 .f32) (v2 : FVec Ideal S512x32 .f32) (v4 : FVec Ideal S1x32 .f32)
    (v8 v10 : FVec Ideal S512x32 .f32) (u : Fin 1) (n : Fin 1024) (r : Fin 32) :
    k0_pay1 (F := Ideal) v0 v2 v4 v8 v10 (ix3 u n r)
      = slab (fun n k => v0 (ix3 (0 : Fin 1) n k)) v2 v8 v10 (fun r => v4 (ix2 (0 : Fin 1) r)) n r := by
  unfold k0_pay1
  refine (shapeCast_ab_1ab_apply _ _ u n r).trans ?_
  show (matmul (F := Ideal) D none _ v2 _ (ix2 n r) + broadcastTo _ _ _ (ix2 n r)) * broadcastTo _ _ _ (ix2 n r)
      + broadcastTo _ _ _ (ix2 n r) = _
  refine slab_intro _ _ _ _ _ n r _ _ _ _ ?_ ?_ ?_ ?_
  · exact body_proj_at v0 _ v2 n r
  · exact row_at v4 _ _ n r
  · refine (keep_at _ _ _ n r).trans ((colsum_at _ _ _ _ r).trans (Finset.sum_congr rfl fun j _ => ?_))
    exact body_proj_at v0 _ v10 j r
  · refine (keep_at _ _ _ n r).trans ((colsum_at _ _ _ _ r).trans (Finset.sum_congr rfl fun j _ => ?_))
    exact congrArg₂ (· * ·) (body_proj_at v0 _ v8 j r) (body_proj_at v0 _ v10 j r)

end Cert.Gnn.Body

end
-- ==== Proof.Kernel.lean ====
/-
  The kernel's result array. The grid has eight points, one per graph: point `t` is handed graph `t`'s 1 × 1024 × 512
  block of features, the three weight matrices whole and the bias (reshaped on the host to a 1 × 32 row before the
  region), and writes back the 1 × 1024 × 32 block `t` of the result. By `Body.pay_at` that block is `slab` of graph
  `t`'s rows, which is block `t` of `msg` of the argument arrays; the eight blocks cover the result array, so the array
  ends holding `msg`.
-/
import proofs.«143688_j44255343018632_1_alg».proof.Proof.Gen.KernelIdeal.Value
import proofs.«143688_j44255343018632_1_alg».proof.Proof.Body
import Idealize.ShloMosaic.Lib.StableHlo.Run

noncomputable section

namespace Cert.Gnn.Kernel

open Cert.KernelIdeal Cert.KernelIdeal.Gen Cert.KernelIdeal.Value Idealize.ShloMosaic Idealize.ShloMosaic.TcCoe Idealize.SL.Sem
open Idealize.ShloMosaic.ValueIdx Idealize.ShloMosaic.StableHlo Cert.Gnn
open Idealize.ShloMosaic.Pipeline (Dat)
open scoped BigOperators

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- `slab` depends on its arguments entry by entry. -/
theorem slab_congr {xs xs' : Fin 1024 → Fin 512 → EReal} {W1 W1' W2 W2' Wg Wg' : FVec Ideal ⟨2, ![512, 32]⟩ .f32}
    {bias bias' : Fin 32 → EReal} (hx : ∀ n k, xs n k = xs' n k) (h1 : ∀ k r, W1 (ix2 k r) = W1' (ix2 k r))
    (h2 : ∀ k r, W2 (ix2 k r) = W2' (ix2 k r)) (hg : ∀ k r, Wg (ix2 k r) = Wg' (ix2 k r)) (hb : ∀ r, bias r = bias' r)
    (n : Fin 1024) (r : Fin 32) : slab xs W1 W2 Wg bias n r = slab xs' W1' W2' Wg' bias' n r := by
  have ex : xs = xs' := funext fun n => funext fun k => hx n k
  have e1 : W1 = W1' := funext fun i => by rw [eq_ix2 i]; exact h1 _ _
  have e2 : W2 = W2' := funext fun i => by rw [eq_ix2 i]; exact h2 _ _
  have eg : Wg = Wg' := funext fun i => by rw [eq_ix2 i]; exact hg _ _
  have eb : bias = bias' := funext hb
  rw [ex, e1, e2, eg, eb]

/-- What one point stores, against the whole arrays: if the feature block is graph `g`'s rows, the matrices are the whole
    matrices and the bias row is the bias vector, then the stored block at `y` is `msg` at the entry of graph `g` with
    `y`'s node and channel. -/
theorem point_eq (x : FVec Ideal ⟨3, ![8, 1024, 512]⟩ .f32) (W1 W2 Wg : FVec Ideal ⟨2, ![512, 32]⟩ .f32) (b : FVec Ideal ⟨1, ![32]⟩ .f32)
    (v0 : FVec Ideal S1x1024x512 .f32) (v2 : FVec Ideal S512x32 .f32) (v4 : FVec Ideal S1x32 .f32) (v8 v10 : FVec Ideal S512x32 .f32)
    (g : Fin 8) (h0 : ∀ n k, v0 (ix3 (0 : Fin 1) n k) = x (ix3 g n k)) (h2 : ∀ k r, v2 (ix2 k r) = W1 (ix2 k r))
    (h8 : ∀ k r, v8 (ix2 k r) = W2 (ix2 k r)) (h10 : ∀ k r, v10 (ix2 k r) = Wg (ix2 k r))
    (h4 : ∀ r, v4 (ix2 (0 : Fin 1) r) = b (ix1 r))
    (y : S1x1024x32.Idx) (i : S8x1024x32.Idx) (hi0 : (i 0).val = g.val) (hi1 : (i 1).val = (y 1).val) (hi2 : (i 2).val = (y 2).val) :
    k0_pay1 (F := Ideal) v0 v2 v4 v8 v10 y = msg x W1 W2 Wg b i := by
  obtain ⟨u, n, r, rfl⟩ : ∃ (u : Fin 1) (n : Fin 1024) (r : Fin 32), y = ix3 u n r := ⟨y 0, y 1, y 2, eq_ix3 y⟩
  obtain rfl : i = ix3 g n r := funext fun a => Fin.ext (by
    match a with
    | ⟨0, _⟩ => exact hi0
    | ⟨1, _⟩ => exact hi1
    | ⟨2, _⟩ => exact hi2)
  rw [Body.pay_at, msg_ix3]
  exact slab_congr h0 h2 h8 h10 h4 n r

/-- The printed index maps over the eight points: the feature window and the result window are at block `t` of the
    graph axis, every other window at block zero. -/
theorem idx_facts : ∀ t : Fin cfg0.N,
    win0_0.index t (0 : Fin 3) = t.val ∧ win0_0.index t (1 : Fin 3) = 0 ∧ win0_0.index t (2 : Fin 3) = 0
    ∧ win0_5.index t (0 : Fin 3) = t.val ∧ win0_5.index t (1 : Fin 3) = 0 ∧ win0_5.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The bias row as the region finds it: the host's reshape of the bias vector. -/
theorem bias_row (c : Dev nD) (r : Fin 32) :
    (V m c main_call0_v0 : S1x32.Idx → EReal) (ix2 (0 : Fin 1) r) = (m ((c : Thread nD τ).loc main_arg4) : S32.Idx → EReal) (ix1 r) := by
  have e : (V m c main_call0_v0 : S1x32.Idx → EReal)
      = shapeCast S1x32 (m ((c : Thread nD τ).loc main_arg4) : S32.Idx → EReal) shapeCasts_S32_S1x32 := by
    dsimp only [Gen.V, Gen.hostOps0]; after_results; rfl
  rw [e]
  exact shapeCast_a_1a_apply _ _ 0 r

/-- The feature block at point `t` is graph `t`'s rows. -/
theorem feat_blk (c : Dev nD) (t : Fin cfg0.N) (g : Fin 8) (hg : g.val = t.val) (n : Fin 1024) (k : Fin 512) :
    (iblk m c 0 t : Vec Ideal S1x1024x512 .f32) (ix3 (0 : Fin 1) n k)
      = (m ((c : Thread nD τ).loc main_arg0) : S8x1024x512.Idx → EReal) (ix3 g n k) := by
  obtain ⟨e0, e1, e2, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 3) * 1 + 1 * 0 = g.val; omega
  | ⟨1, _⟩ => show win0_0.index t (1 : Fin 3) * 1024 + 1 * n.val = n.val; omega
  | ⟨2, _⟩ => show win0_0.index t (2 : Fin 3) * 512 + 1 * k.val = k.val; omega

/-- The three weight windows hold the whole matrices at every point. -/
theorem w1_blk (c : Dev nD) (t : Fin cfg0.N) (k : Fin 512) (r : Fin 32) :
    (iblk m c 1 t : Vec Ideal S512x32 .f32) (ix2 k r) = (m ((c : Thread nD τ).loc main_arg1) : S512x32.Idx → EReal) (ix2 k r) := by
  obtain ⟨-, -, -, -, -, -, e0, e1, -⟩ := idx_facts t
  unfold iblk
  rw [View.read_apply]
  show V m c main_arg1 _ = _
  rw [V_main_arg1]
  refine congrArg _ (funext fun a => Fin.ext ?_)
  match a with
  | ⟨0, _⟩ => show win0_1.index t (0 : Fin 2) * 512 + 1 * k.val = k.val; omega
  | ⟨1, _⟩ => show win0_1.index t (1 : Fin 2) * 32 + 1 * r.val = r.val; omega

theorem w2_blk (c : Dev nD) (t : Fin cfg0.N) (k : Fin 512) (r : Fin 32) :
    (iblk m c 2 t : Vec Ideal S512x32 .f32) (ix2 k r) = (m ((c : Thread nD τ).loc main_arg2) : S512x32.Idx → EReal) (ix2 k r) := by
  obtain ⟨-, -, -, -, -, -, -, -, e0, e1, -⟩ := idx_facts t
  unfold iblk
  rw [View.read_apply]
  show V m c main_arg2 _ = _
  rw [V_main_arg2]
  refine congrArg _ (funext fun a => Fin.ext ?_)
  match a with
  | ⟨0, _⟩ => show win0_2.index t (0 : Fin 2) * 512 + 1 * k.val = k.val; omega
  | ⟨1, _⟩ => show win0_2.index t (1 : Fin 2) * 32 + 1 * r.val = r.val; omega

theorem wg_blk (c : Dev nD) (t : Fin cfg0.N) (k : Fin 512) (r : Fin 32) :
    (iblk m c 3 t : Vec Ideal S512x32 .f32) (ix2 k r) = (m ((c : Thread nD τ).loc main_arg3) : S512x32.Idx → EReal) (ix2 k r) := by
  obtain ⟨-, -, -, -, -, -, -, -, -, -, e0, e1, -⟩ := idx_facts t
  unfold iblk
  rw [View.read_apply]
  show V m c main_arg3 _ = _
  rw [V_main_arg3]
  refine congrArg _ (funext fun a => Fin.ext ?_)
  match a with
  | ⟨0, _⟩ => show win0_3.index t (0 : Fin 2) * 512 + 1 * k.val = k.val; omega
  | ⟨1, _⟩ => show win0_3.index t (1 : Fin 2) * 32 + 1 * r.val = r.val; omega

/-- The bias window holds the reshaped bias row at every point. -/
theorem bias_blk (c : Dev nD) (t : Fin cfg0.N) (r : Fin 32) :
    (iblk m c 4 t : Vec Ideal S1x32 .f32) (ix2 (0 : Fin 1) r) = (m ((c : Thread nD τ).loc main_arg4) : S32.Idx → EReal) (ix1 r) := by
  obtain ⟨-, -, -, -, -, -, -, -, -, -, -, -, e0, e1⟩ := idx_facts t
  unfold iblk
  rw [View.read_apply]
  show V m c main_call0_v0 _ = _
  refine Eq.trans (congrArg _ (funext fun a => Fin.ext ?_)) (bias_row m c r)
  match a with
  | ⟨0, _⟩ => show win0_4.index t (0 : Fin 2) * 1 + 1 * 0 = 0; omega
  | ⟨1, _⟩ => show win0_4.index t (1 : Fin 2) * 32 + 1 * r.val = r.val; omega

/-- The result the kernel's array ends holding. -/
abbrev result (c : Dev nD) : FVec Ideal ⟨3, ![8, 1024, 32]⟩ .f32 :=
  msg (m ((c : Thread nD τ).loc main_arg0)) (m ((c : Thread nD τ).loc main_arg1)) (m ((c : Thread nD τ).loc main_arg2))
    (m ((c : Thread nD τ).loc main_arg3)) (m ((c : Thread nD τ).loc main_arg4))

/-- What point `t` writes back is block `t` of `msg` of the argument arrays. -/
theorem flushed_eq (c : Dev nD) (t : Fin cfg0.N) :
    (dats m 0 c).flushed 5 t = ((cfg0.win 5).blk t).view.read (Elt Ideal) (result m c) := by
  have hN : cfg0.N = 8 := N_0
  obtain ⟨-, -, -, e0, e1, e2, -⟩ := idx_facts t
  rw [flushed5]
  unfold out0_5
  rw [View.canon_unit_zero hz3]
  simp only [View.ld_unit_zero (S := S1x1024x512) hz3, View.ld_unit_zero (S := S512x32) hz2, View.ld_unit_zero (S := S1x32) hz2]
  funext y
  show k0_pay1 (F := Ideal) (iblk m c 0 t) (iblk m c 1 t) (iblk m c 4 t) (iblk m c 2 t) (iblk m c 3 t) y
    = result m c (((cfg0.win 5).blk t).view.emb y)
  refine point_eq _ _ _ _ _ _ _ _ _ _ ⟨t.val, by omega⟩ (feat_blk m c t _ rfl) (w1_blk m c t) (w2_blk m c t) (wg_blk m c t)
    (bias_blk m c t) y _ ?_ ?_ ?_
  · show win0_5.index t (0 : Fin 3) * 1 + 1 * (y 0).val = t.val
    have : (y 0).val < 1 := (y 0).isLt
    omega
  · show win0_5.index t (1 : Fin 3) * 1024 + 1 * (y 1).val = (y 1).val
    omega
  · show win0_5.index t (2 : Fin 3) * 32 + 1 * (y 2).val = (y 2).val
    omega

/-- An index of the result array is in point `t`'s block iff each coordinate is in the block's range on its axis. -/
theorem mem_blk (t : Fin cfg0.N) (i : S8x1024x32.Idx) :
    i ∈ ((cfg0.win 5).blk t).view.set ↔ ∀ a : Fin 3, win0_5.index t a * S1x1024x32.size a ≤ (i a).val
      ∧ (i a).val < win0_5.index t a * S1x1024x32.size a + S1x1024x32.size a := by
  show i ∈ ((View.whole main_v0).slice (win0_5.rect t)).set ↔ _
  rw [View.set_slice_whole, Rect.mem_set_unit]
  exact Iff.rfl

/-- Every entry of the result array is in the block of the point of its graph. -/
theorem cover (i : S8x1024x32.Idx) : ∃ t : Fin cfg0.N, (cfg0.win 5).flush t = true ∧ i ∈ ((cfg0.win 5).blk t).view.set := by
  have hN : cfg0.N = 8 := N_0
  have h0 : (i 0).val < 8 := (i 0).isLt
  have h1 : (i 1).val < 1024 := (i 1).isLt
  have h2 : (i 2).val < 32 := (i 2).isLt
  obtain ⟨t, ht⟩ : ∃ t : Fin cfg0.N, t.val = (i 0).val := ⟨⟨(i 0).val, by omega⟩, rfl⟩
  obtain ⟨-, -, -, e0, e1, e2, -⟩ := idx_facts t
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1024 ≤ (i 1).val ∧ (i 1).val < win0_5.index t (1 : Fin 3) * 1024 + 1024; omega
  | ⟨2, _⟩ => show win0_5.index t (2 : Fin 3) * 32 ≤ (i 2).val ∧ (i 2).val < win0_5.index t (2 : Fin 3) * 32 + 32; omega

/-- So the result array ends holding `msg` of the argument arrays. -/
theorem final (c : Dev nD) : (dats m 0 c).arrAt 5 cfg0.N = result m c :=
  (dats m 0 c).arrAt_eq_of_cover 5 (result m c) (fun t _ => flushed_eq m c t) cover

/-- The kernel's run, read: the result array at `msg` of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.Gnn.Kernel

end
-- ==== Proof.lean ====
/-
  The certificate of a batched message-passing layer: for each of eight graphs of 1024 nodes with 512 features,
  channel `r` of node `n` is

      (x[n] · W1[:, r] + bias[r]) * (∑ j, x[j] · Wg[:, r]) + ∑ j, (x[j] · W2[:, r]) * (x[j] · Wg[:, r]).

  The kernel computes one graph per grid point (three products of the graph's block with the whole weight matrices,
  two sums down the block's rows); the reference computes the same products, sums and combination on the whole batch.
  On the extended reals both are literally the function `Gnn.msg` of the argument arrays (Proof/Spec.lean): the
  reference by reading its operations one at a time (Proof/Reference.lean), the kernel by reading what its body stores
  (Proof/Body.lean) and which block of the result each grid point writes (Proof/Kernel.lean). No law of arithmetic is
  used between the two sides, so the finiteness of the inputs is never opened. The three frames are the generated
  ones (the reference's is its generated run with the result dropped), and the idealization rewrote nothing.
-/
import proofs.«143688_j44255343018632_1_alg».proof.Defs
import proofs.«143688_j44255343018632_1_alg».proof.Proof.Gen.Kernel
import proofs.«143688_j44255343018632_1_alg».proof.Proof.Gen.Kernel.Skeleton
import proofs.«143688_j44255343018632_1_alg».proof.Proof.Gen.Kernel.Launch
import proofs.«143688_j44255343018632_1_alg».proof.Proof.Gen.Kernel.Points
import proofs.«143688_j44255343018632_1_alg».proof.Proof.Gen.Kernel.Frame
import proofs.«143688_j44255343018632_1_alg».proof.Proof.Gen.KernelIdeal
import proofs.«143688_j44255343018632_1_alg».proof.Proof.Gen.KernelIdeal.Skeleton
import proofs.«143688_j44255343018632_1_alg».proof.Proof.Gen.KernelIdeal.Launch
import proofs.«143688_j44255343018632_1_alg».proof.Proof.Gen.KernelIdeal.Points
import proofs.«143688_j44255343018632_1_alg».proof.Proof.Gen.KernelIdeal.Frame
import proofs.«143688_j44255343018632_1_alg».proof.Proof.Gen.ReferenceIdeal
import proofs.«143688_j44255343018632_1_alg».proof.Proof.Gen.KernelIdeal.Value
import proofs.«143688_j44255343018632_1_alg».proof.Proof.Gen.ReferenceIdeal.Run
import proofs.«143688_j44255343018632_1_alg».proof.Proof.Gen.ReferenceIdeal.Read
import proofs.«143688_j44255343018632_1_alg».proof.Proof.Gen.Pre_finite_inputs
import proofs.«143688_j44255343018632_1_alg».proof.Proof.Reference
import proofs.«143688_j44255343018632_1_alg».proof.Proof.Kernel
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result at `Gnn.msg` of arguments that agree. -/
theorem algebraic : Cert.algebraic_KernelIdeal_ReferenceIdeal := by
  intro m ρ m' ρ' _ hagree
  refine ⟨fun c => Cert.Gnn.Kernel.result m c, Cert.Gnn.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.Gnn.Ref.result_eq, (hagree c).1, (hagree c).2.1, (hagree c).2.2.1,
    (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
